-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S64x2048x1024 : Shape := ⟨3, ![64, 2048, 1024]⟩
abbrev S64x1024x2048 : Shape := ⟨3, ![64, 1024, 2048]⟩
abbrev S64 : Shape := ⟨1, ![64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64x2048x1024 : S_.BroadcastsInDim S64x2048x1024 (![] : Fin 0 → Fin S64x2048x1024.rank)
  reducesTo_S64x2048x1024_S_d0_1_2 : S64x2048x1024.ReducesTo [0, 1, 2] S_
  bcast_S_S64x1024x2048 : S_.BroadcastsInDim S64x1024x2048 (![] : Fin 0 → Fin S64x1024x2048.rank)
  reducesTo_S64x1024x2048_S_d0_1_2 : S64x1024x2048.ReducesTo [0, 1, 2] S_

variable [Facts]

def fn_part1 {F : FTy → Type} [FloatOps F] (main_v13 : IVec S_ 1) (main_v16 : IVec S64x2048x1024 1) : IVec S_ 1 :=
  let main_c_5 : IVec S_ 1 := constantI S_ 1 1#1
  let main_v17 : IVec S_ 1 := (fun x v => Host.reduce IntOp.andi x v reducesTo_S64x2048x1024_S_d0_1_2 h_S_) main_v16 main_c_5
  let main_v18 : IVec S_ 1 := andi main_v13 main_v17
  main_v18

def fn {F : FTy → Type} [FloatOps F] (main_arg0 : FVec F S16384x2048 .f32) (main_arg1 : FVec F S64x2048x1024 .f32) (main_arg2 : FVec F S64x1024x2048 .f32) (main_arg3 : FVec F S64x2048x1024 .f32) (main_arg4 : IVec S64 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S64x2048x1024 .f32 := Host.absf main_arg1
  let main_cst_0 : FVec F S_ .f32 := constant S_ .f32 0x7F800000#32
  let main_v5 : FVec F S64x2048x1024 .f32 := broadcastInDim S64x2048x1024 ![] bcast_S_S64x2048x1024 main_cst_0
  let main_v6 : IVec S64x2048x1024 1 := cmpf .olt main_v4 main_v5
  let main_c_1 : IVec S_ 1 := constantI S_ 1 1#1
  let main_v7 : IVec S_ 1 := (fun x v => Host.reduce IntOp.andi x v reducesTo_S64x2048x1024_S_d0_1_2 h_S_) main_v6 main_c_1
  let main_v8 : IVec S_ 1 := andi main_v3 main_v7
  let main_v9 : FVec F S64x1024x2048 .f32 := Host.absf main_arg2
  let main_cst_2 : FVec F S_ .f32 := constant S_ .f32 0x7F800000#32
  let main_v10 : FVec F S64x1024x2048 .f32 := broadcastInDim S64x1024x2048 ![] bcast_S_S64x1024x2048 main_cst_2
  let main_v11 : IVec S64x1024x2048 1 := cmpf .olt main_v9 main_v10
  let main_c_3 : IVec S_ 1 := constantI S_ 1 1#1
  let main_v12 : IVec S_ 1 := (fun x v => Host.reduce IntOp.andi x v reducesTo_S64x1024x2048_S_d0_1_2 h_S_) main_v11 main_c_3
  let main_v13 : IVec S_ 1 := andi main_v8 main_v12
  let main_v14 : FVec F S64x2048x1024 .f32 := Host.absf main_arg3
  let main_cst_4 : FVec F S_ .f32 := constant S_ .f32 0x7F800000#32
  let main_v15 : FVec F S64x2048x1024 .f32 := broadcastInDim S64x2048x1024 ![] bcast_S_S64x2048x1024 main_cst_4
  let main_v16 : IVec S64x2048x1024 1 := cmpf .olt main_v14 main_v15
  fn_part1 (F := F) main_v13 main_v16
-- ==== Kernel.lean ====
abbrev S16384x2048 : Shape := ⟨2, ![16384, 2048]⟩
abbrev S64x2048x1024 : Shape := ⟨3, ![64, 2048, 1024]⟩
abbrev S64x1024x2048 : Shape := ⟨3, ![64, 1024, 2048]⟩
abbrev S64 : Shape := ⟨1, ![64]⟩
abbrev S64x256x2048 : Shape := ⟨3, ![64, 256, 2048]⟩
abbrev S1x256x2048 : Shape := ⟨3, ![1, 256, 2048]⟩
abbrev S1x2048x512 : Shape := ⟨3, ![1, 2048, 512]⟩
abbrev S1x512x2048 : Shape := ⟨3, ![1, 512, 2048]⟩
abbrev S256x2048 : Shape := ⟨2, ![256, 2048]⟩
abbrev S2048x512 : Shape := ⟨2, ![2048, 512]⟩
abbrev S256x512 : Shape := ⟨2, ![256, 512]⟩
abbrev S512x2048 : Shape := ⟨2, ![512, 2048]⟩

abbrev nBuf : Space → Nat
  | .hbm => 8
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S64x2048x1024, .f32⟩
  | .hbm, ⟨2, _⟩ => ⟨S64x1024x2048, .f32⟩
  | .hbm, ⟨3, _⟩ => ⟨S64x2048x1024, .f32⟩
  | .hbm, ⟨4, _⟩ => ⟨S64, .i32⟩
  | .hbm, ⟨5, _⟩ => ⟨S64x256x2048, .f32⟩
  | .hbm, ⟨6, _⟩ => ⟨S64x256x2048, .f32⟩
  | .hbm, ⟨7, _⟩ => ⟨S16384x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S1x256x2048, .f32⟩
  | .local _ .vmem, ⟨9, _⟩ => ⟨S1x256x2048, .f32⟩
  | .local _ .vmem, ⟨10, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v27 : BitVec 1 := Scalar.cmpi .eq arg1 c1_i32
  let v28 : BitVec 32 := Scalar.extui v27
  let c0_i32_18 : BitVec 32 := 0#32
  let v29 : BitVec 1 := Scalar.cmpi .ne v28 c0_i32_18
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16384x2048_S64x256x2048 : S16384x2048.ShapeCasts S64x256x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S256x2048_S1x256x2048 : S256x2048.ShapeCasts S1x256x2048
  shapeCasts_S64x256x2048_S16384x2048 : S64x256x2048.ShapeCasts S16384x2048
  dot_S256x2048_S2048x512_S256x512_1_0_0_1_n_n_wf : DotDims.WF S256x2048 S2048x512 S256x512 [1] [0] [0] [1] [] []
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S64x256x2048.size a
  hwx0_0 : ∀ i : grid0.Coords, EltTy.bits .f32 = 32 ∨ (Rect.block (s := S64x256x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S64x2048x1024.size a
  hwx0_1 : ∀ i : grid0.Coords, EltTy.bits .f32 = 32 ∨ (Rect.block (s := S64x2048x1024) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S64x2048x1024.size a
  hwx0_2 : ∀ i : grid0.Coords, EltTy.bits .f32 = 32 ∨ (Rect.block (s := S64x2048x1024) S1x2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S64x1024x2048.size a
  hwx0_3 : ∀ i : grid0.Coords, EltTy.bits .f32 = 32 ∨ (Rect.block (s := S64x1024x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S64x256x2048.size a
  hwx0_4 : ∀ i : grid0.Coords, EltTy.bits .f32 = 32 ∨ (Rect.block (s := S64x256x2048) S1x256x2048.size (cc0_transform_4 i) (hinb0_4 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_v0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x2048 : Shape := ⟨2, ![16384, 2048]⟩
abbrev S64x2048x1024 : Shape := ⟨3, ![64, 2048, 1024]⟩
abbrev S64x1024x2048 : Shape := ⟨3, ![64, 1024, 2048]⟩
abbrev S64 : Shape := ⟨1, ![64]⟩
abbrev S64x256x2048 : Shape := ⟨3, ![64, 256, 2048]⟩
abbrev S64x256x1024 : Shape := ⟨3, ![64, 256, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048x1024, .f32⟩
  | .hbm, ⟨2, _⟩ => ⟨S64x1024x2048, .f32⟩
  | .hbm, ⟨3, _⟩ => ⟨S64x2048x1024, .f32⟩
  | .hbm, ⟨4, _⟩ => ⟨S64, .i32⟩
  | .hbm, ⟨5, _⟩ => ⟨S64x256x2048, .f32⟩
  | .hbm, ⟨6, _⟩ => ⟨S64x256x1024, .f32⟩
  | .hbm, ⟨7, _⟩ => ⟨S64x256x1024, .f32⟩
  | .hbm, ⟨8, _⟩ => ⟨S64x256x1024, .f32⟩
  | .hbm, ⟨9, _⟩ => ⟨S_, .f32⟩
  | .hbm, ⟨10, _⟩ => ⟨S64x256x1024, .f32⟩
  | .hbm, ⟨11, _⟩ => ⟨S64x256x1024, .f32⟩
  | .hbm, ⟨12, _⟩ => ⟨S_, .f32⟩
  | .hbm, ⟨13, _⟩ => ⟨S64x256x1024, .f32⟩
  | .hbm, ⟨14, _⟩ => ⟨S64x256x1024, .f32⟩
  | .hbm, ⟨15, _⟩ => ⟨S64x256x1024, .f32⟩
  | .hbm, ⟨16, _⟩ => ⟨S64x256x1024, .f32⟩
  | .hbm, ⟨17, _⟩ => ⟨S64x256x1024, .f32⟩
  | .hbm, ⟨18, _⟩ => ⟨S64x256x2048, .f32⟩
  | .hbm, ⟨19, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]

class Facts₀ : Prop where
  shapeCasts_S16384x2048_S64x256x2048 : S16384x2048.ShapeCasts S64x256x2048
  bcast_S_S64x256x1024 : S_.BroadcastsInDim S64x256x1024 (![] : Fin 0 → Fin S64x256x1024.rank)
  shapeCasts_S64x256x2048_S16384x2048 : S64x256x2048.ShapeCasts S16384x2048
  dot_S64x256x2048_S64x2048x1024_S64x256x1024_2_1_1_2_0_0_wf : DotDims.WF S64x256x2048 S64x2048x1024 S64x256x1024 [2] [1] [1] [2] [0] [0]
  dot_S64x256x1024_S64x1024x2048_S64x256x2048_2_1_1_2_0_0_wf : DotDims.WF S64x256x1024 S64x1024x2048 S64x256x2048 [2] [1] [1] [2] [0] [0]

variable [Facts₀]

def dot_S64x256x2048_S64x2048x1024_S64x256x1024_2_1_1_2_0_0 : DotDims S64x256x2048 S64x2048x1024 S64x256x1024 where
  lhsContracting := [2]
  rhsContracting := [1]
  lhsNonContracting := [1]
  rhsNonContracting := [2]
  lhsBatch := [0]
  rhsBatch := [0]
  wf := dot_S64x256x2048_S64x2048x1024_S64x256x1024_2_1_1_2_0_0_wf
def dot_S64x256x1024_S64x1024x2048_S64x256x2048_2_1_1_2_0_0 : DotDims S64x256x1024 S64x1024x2048 S64x256x2048 where
  lhsContracting := [2]
  rhsContracting := [1]
  lhsNonContracting := [1]
  rhsNonContracting := [2]
  lhsBatch := [0]
  rhsBatch := [0]
  wf := dot_S64x256x1024_S64x1024x2048_S64x256x2048_2_1_1_2_0_0_wf

class Facts : Prop extends Facts₀ where

variable [Facts]
-- ==== Proof.Spec.lean ====
/-
  The function both programs compute, over the extended reals.

  Tokens are grouped by expert: `xe : [64, 256, 2048]` (expert, token, model dimension), the gate and up weights
  `w1, w3 : [64, 2048, 1024]`, the down weights `w2 : [64, 1024, 2048]`. For expert `e`, token `t` and hidden unit `h`

      proj w e t h   = Σ_k xe[e,t,k] · w[e,k,h]                  (a row of the token block times a weight column)
      hidden e t h   = silu (proj w1 e t h) · proj w3 e t h       (silu g = g · 1/(1 + e^(-g)))
      out e t d      = Σ_{h < 1024} hidden e t h · w2[e,h,d].

  The kernel visits each expert twice, once per half of the hidden axis, and adds each half's contribution
  `Σ_{h < 512} hidden · w2` to an accumulator that starts at zero: `(0 + first half) + second half`. Addition of
  extended reals is associative and commutative, so this is the whole sum over `h < 1024` (`sum_two_tiles`) — no
  finiteness is needed. `two_steps` states it for blocks that are restrictions of the whole arrays.
-/
import Idealize.ShloMosaic.PureOps.Ideal
import Idealize.ShloMosaic.Lib.ValueIdx

noncomputable section

namespace Cert.Spec

open Idealize.ShloMosaic Idealize.ShloMosaic.ValueIdx

/-- The arrays' shapes: tokens grouped by expert, gate / up weights, down weights. -/
abbrev SX : Shape := ⟨3, ![64, 256, 2048]⟩
abbrev SW13 : Shape := ⟨3, ![64, 2048, 1024]⟩
abbrev SW2 : Shape := ⟨3, ![64, 1024, 2048]⟩
/-- One grid point's blocks: one expert's tokens, half of its gate / up columns, half of its down rows; and the accumulator. -/
abbrev BX : Shape := ⟨3, ![1, 256, 2048]⟩
abbrev BW13 : Shape := ⟨3, ![1, 2048, 512]⟩
abbrev BW2 : Shape := ⟨3, ![1, 512, 2048]⟩
abbrev BA : Shape := ⟨2, ![256, 2048]⟩

/-- Hidden unit `h` of the first half, and of the second half, among all 1024. -/
abbrev lo (h : Fin 512) : Fin 1024 := ⟨h.val, by have := h.isLt; omega⟩
abbrev hi (h : Fin 512) : Fin 1024 := ⟨512 + h.val, by have := h.isLt; omega⟩

/-- `silu g = g · σ(g)`, `σ` the logistic function `1 / (1 + e^(-g))` on the extended reals. -/
def silu (g : EReal) : EReal := g * Ideal.logistic g

/-! ## Over the whole arrays -/

/-- A token's projection on one hidden unit: `Σ_k xe[e,t,k] · w[e,k,h]`. -/
def proj (xe : FVec Ideal SX .f32) (w : FVec Ideal SW13 .f32) (e : Fin 64) (t : Fin 256) (h : Fin 1024) : EReal :=
  ∑ k : Fin 2048, xe (ix3 e t k) * w (ix3 e k h)

/-- The gated hidden activation: `silu (x·w1) · (x·w3)`. -/
def hidden (xe : FVec Ideal SX .f32) (w1 w3 : FVec Ideal SW13 .f32) (e : Fin 64) (t : Fin 256) (h : Fin 1024) : EReal :=
  silu (proj xe w1 e t h) * proj xe w3 e t h

/-- The down projection: `Σ_h hidden[e,t,h] · w2[e,h,d]`. -/
def outAt (xe : FVec Ideal SX .f32) (w1 w3 : FVec Ideal SW13 .f32) (w2 : FVec Ideal SW2 .f32)
    (e : Fin 64) (t : Fin 256) (d : Fin 2048) : EReal :=
  ∑ h : Fin 1024, hidden xe w1 w3 e t h * w2 (ix3 e h d)

/-- The result, expert by expert, as one array. -/
def G (xe : FVec Ideal SX .f32) (w1 w3 : FVec Ideal SW13 .f32) (w2 : FVec Ideal SW2 .f32) : FVec Ideal SX .f32 :=
  fun i => outAt xe w1 w3 w2 (i 0) (i 1) (i 2)

theorem G_ix3 (xe : FVec Ideal SX .f32) (w1 w3 : FVec Ideal SW13 .f32) (w2 : FVec Ideal SW2 .f32)
    (e : Fin 64) (t : Fin 256) (d : Fin 2048) : G xe w1 w3 w2 (ix3 e t d) = outAt xe w1 w3 w2 e t d := rfl

/-! ## Over one grid point's blocks -/

/-- The same projection inside a block: `Σ_k xb[0,t,k] · wb[0,k,h]`, `h` among the block's 512 columns. -/
def projB (xb : FVec Ideal BX .f32) (wb : FVec Ideal BW13 .f32) (t : Fin 256) (h : Fin 512) : EReal :=
  ∑ k : Fin 2048, xb (ix3 (0 : Fin 1) t k) * wb (ix3 (0 : Fin 1) k h)

def hiddenB (xb : FVec Ideal BX .f32) (w1b w3b : FVec Ideal BW13 .f32) (t : Fin 256) (h : Fin 512) : EReal :=
  silu (projB xb w1b t h) * projB xb w3b t h

/-- What one grid point adds to the accumulator: `acc[t,d] + Σ_{h < 512} hiddenB[t,h] · w2b[0,h,d]`. -/
def stepAt (xb : FVec Ideal BX .f32) (w1b w3b : FVec Ideal BW13 .f32) (w2b : FVec Ideal BW2 .f32)
    (acc : FVec Ideal BA .f32) (t : Fin 256) (d : Fin 2048) : EReal :=
  acc (ix2 t d) + ∑ h : Fin 512, hiddenB xb w1b w3b t h * w2b (ix3 (0 : Fin 1) h d)

/-- The accumulator after the point, as an array. -/
def step (xb : FVec Ideal BX .f32) (w1b w3b : FVec Ideal BW13 .f32) (w2b : FVec Ideal BW2 .f32)
    (acc : FVec Ideal BA .f32) : FVec Ideal BA .f32 :=
  fun j => stepAt xb w1b w3b w2b acc (j 0) (j 1)

theorem step_ix2 (xb : FVec Ideal BX .f32) (w1b w3b : FVec Ideal BW13 .f32) (w2b : FVec Ideal BW2 .f32)
    (acc : FVec Ideal BA .f32) (t : Fin 256) (d : Fin 2048) :
    step xb w1b w3b w2b acc (ix2 t d) = stepAt xb w1b w3b w2b acc t d := rfl

/-! ## Two halves make the whole -/

/-- A sum over 1024 hidden units is the sum over the first 512 plus the sum over the last 512, and adding it to a
    zero accumulator first changes nothing. -/
theorem sum_two_tiles (f : Fin 1024 → EReal) :
    (0 + ∑ h : Fin 512, f (lo h)) + ∑ h : Fin 512, f (hi h) = ∑ h : Fin 1024, f h := by
  rw [zero_add]
  exact (Fin.sum_univ_add (a := 512) (b := 512) (f : Fin (512 + 512) → EReal)).symm

/-- Two consecutive grid points of one expert `e`: when the token blocks are expert `e`'s tokens, the first point's
    weight blocks are the first halves of expert `e`'s weights and the second point's the second halves, the
    accumulator, started at zero, ends at the whole down projection. -/
theorem two_steps (xe : FVec Ideal SX .f32) (w1 w3 : FVec Ideal SW13 .f32) (w2 : FVec Ideal SW2 .f32) (e : Fin 64)
    (xa xb : FVec Ideal BX .f32) (w1a w3a w1b w3b : FVec Ideal BW13 .f32) (w2a w2b : FVec Ideal BW2 .f32)
    (acc0 : FVec Ideal BA .f32)
    (hacc : ∀ j, acc0 j = 0)
    (hxa : ∀ t k, xa (ix3 (0 : Fin 1) t k) = xe (ix3 e t k))
    (hxb : ∀ t k, xb (ix3 (0 : Fin 1) t k) = xe (ix3 e t k))
    (h1a : ∀ k h, w1a (ix3 (0 : Fin 1) k h) = w1 (ix3 e k (lo h)))
    (h3a : ∀ k h, w3a (ix3 (0 : Fin 1) k h) = w3 (ix3 e k (lo h)))
    (h2a : ∀ h d, w2a (ix3 (0 : Fin 1) h d) = w2 (ix3 e (lo h) d))
    (h1b : ∀ k h, w1b (ix3 (0 : Fin 1) k h) = w1 (ix3 e k (hi h)))
    (h3b : ∀ k h, w3b (ix3 (0 : Fin 1) k h) = w3 (ix3 e k (hi h)))
    (h2b : ∀ h d, w2b (ix3 (0 : Fin 1) h d) = w2 (ix3 e (hi h) d))
    (t : Fin 256) (d : Fin 2048) :
    stepAt xb w1b w3b w2b (step xa w1a w3a w2a acc0) t d = outAt xe w1 w3 w2 e t d := by
  have pa : ∀ h : Fin 512, hiddenB xa w1a w3a t h = hidden xe w1 w3 e t (lo h) := by
    intro h; unfold hiddenB hidden projB proj; simp only [hxa, h1a, h3a]
  have pb : ∀ h : Fin 512, hiddenB xb w1b w3b t h = hidden xe w1 w3 e t (hi h) := by
    intro h; unfold hiddenB hidden projB proj; simp only [hxb, h1b, h3b]
  unfold outAt
  rw [← sum_two_tiles]
  unfold stepAt
  rw [step_ix2]
  unfold stepAt
  simp only [pa, pb, h2a, h2b, hacc]

end Cert.Spec

end
-- ==== Proof.Pieces.lean ====
/-
  What one grid point leaves behind, as pure terms of what it loaded.

  The body stores the accumulator whole (at the first of an expert's two points it first fills it with zeros and
  reads that back), and at the second point copies the accumulator, with a leading unit axis, into the output
  block. Each buffer is written through one rectangle covering it, so what it ends holding is the last store's
  payload:
    first point  : the accumulator ends at  pay2 (blocks) (zero fill)          (`sout_A`)
    second point : the accumulator ends at  pay2 (blocks) (what it held)        (`sout_B`)
                   the output block at      pay3 (that accumulator)             (`out_B`)
  where pay2 adds the point's half of the down projection and pay3 adds the unit axis. Stated for any float
  values.
-/
import proofs.«134115_j23682449670360_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole-buffer rectangle, rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-- First point of an expert: the accumulator is filled with zeros, read back, and stored again with this
    point's contribution added: the accumulate payload over the zero fill. -/
theorem sout_A (c : Dev nD) (i : grid0.Coords) (arg2 : Memref sig .tc .vmem S1x256x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x256x2048 .f32) (harg6 : arg6.IsWhole) (arg7 : Memref sig .tc .vmem S256x2048 .f32) (harg7 : arg7.IsWhole) (hc0 : cond0_0 i) (hc1 : ¬cond0_1 i) (x0 : Vec F S1x256x2048 .f32) (x1 : Vec F S1x2048x512 .f32) (x2 : Vec F S1x2048x512 .f32) (x3 : Vec F S1x512x2048 .f32) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S256x2048) hz2, View.readCov_unit_zero (S := S256x2048) _ hz2]
  simp only [View.readAt_eq_ld, harg2.read_unread, harg3.read_unread, harg4.read_unread, harg5.read_unread,
    View.ld_unit_zero (S := S1x256x2048) hz3, View.ld_unit_zero (S := S1x2048x512) hz3,
    View.ld_unit_zero (S := S1x512x2048) hz3]

/-- Second point: the accumulator, holding `xs0`, is stored with this point's contribution added. -/
theorem sout_B (c : Dev nD) (i : grid0.Coords) (arg2 : Memref sig .tc .vmem S1x256x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x256x2048 .f32) (harg6 : arg6.IsWhole) (arg7 : Memref sig .tc .vmem S256x2048 .f32) (harg7 : arg7.IsWhole) (hc0 : ¬cond0_0 i) (hc1 : cond0_1 i) (x0 : Vec F S1x256x2048 .f32) (x1 : Vec F S1x2048x512 .f32) (x2 : Vec F S1x2048x512 .f32) (x3 : Vec F S1x512x2048 .f32) (xs0 : Vec F S256x2048 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero (S := S256x2048) hz2]
  simp only [View.readAt_eq_ld, harg2.read_unread, harg3.read_unread, harg4.read_unread, harg5.read_unread, harg7.read_unread,
    View.ld_unit_zero (S := S1x256x2048) hz3, View.ld_unit_zero (S := S1x2048x512) hz3,
    View.ld_unit_zero (S := S1x512x2048) hz3, View.ld_unit_zero (S := S256x2048) hz2]

/-- Second point: the output block is that accumulator with a leading unit axis. -/
theorem out_B (c : Dev nD) (i : grid0.Coords) (arg2 : Memref sig .tc .vmem S1x256x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x256x2048 .f32) (harg6 : arg6.IsWhole) (arg7 : Memref sig .tc .vmem S256x2048 .f32) (harg7 : arg7.IsWhole) (hc0 : ¬cond0_0 i) (hc1 : cond0_1 i) (x0 : Vec F S1x256x2048 .f32) (x1 : Vec F S1x2048x512 .f32) (x2 : Vec F S1x2048x512 .f32) (x3 : Vec F S1x512x2048 .f32) (xs0 : Vec F S256x2048 .f32) :
    out0_B_4 c i arg2 harg2 arg3 harg3 arg4 harg4 arg5 harg5 arg6 harg6 arg7 harg7 hc0 hc1 x0 x1 x2 x3 xs0 = k0_pay3 (k0_pay2 x0 x1 x2 x3 xs0) := by
  unfold out0_B_4
  rw [View.read_writes_eq_canon _ _ _ (cover0_B_4 c i arg2 harg2 arg3 harg3 arg4 harg4 arg5 harg5 arg6 harg6 arg7 harg7 hc0 hc1 x0 x1 x2 x3 xs0)]
  unfold kernelRun0_B
  dsimp only
  rw [View.canon_unit_zero (S := S1x256x2048) hz3]
  sl_unfold_words
  rw [View.readCov_unit_zero (S := S256x2048) _ hz2]
  simp only [View.readAt_eq_ld, harg2.read_unread, harg3.read_unread, harg4.read_unread, harg5.read_unread, harg7.read_unread,
    View.ld_unit_zero (S := S1x256x2048) hz3, View.ld_unit_zero (S := S1x2048x512) hz3,
    View.ld_unit_zero (S := S1x512x2048) hz3, View.ld_unit_zero (S := S256x2048) hz2]

end Cert.KernelIdeal.Pieces

end
-- ==== Proof.Blocks.lean ====
/-
  A window's block at a grid point is the whole array read at shifted indices.

  The grid has 128 points; point `t` works on expert `t / 2` and on half `t % 2` of the hidden axis. The printed index
  maps, evaluated at every point (`idx_facts`), say: the token block and the output block sit at (t/2, 0, 0) of
  [64,256,2048] in blocks of [1,256,2048]; the gate / up weight blocks at (t/2, 0, t%2) of [64,2048,1024] in blocks of
  [1,2048,512]; the down weight block at (t/2, t%2, 0) of [64,1024,2048] in blocks of [1,512,2048]. An element of a
  block sits in the array at block index × block size + its coordinate inside the block, axis by axis.
-/
import proofs.«134115_j23682449670360_2_alg».proof.Proof.Gen.KernelIdeal.Frame.Runs
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The block indices of the five windows at every grid point: expert `t / 2`, half `t % 2`. -/
theorem idx_facts : ∀ t : Fin cfg0.N,
    (win0_0.index t (0 : Fin 3) = t.val / 2 ∧ win0_0.index t (1 : Fin 3) = 0 ∧ win0_0.index t (2 : Fin 3) = 0)
    ∧ (win0_1.index t (0 : Fin 3) = t.val / 2 ∧ win0_1.index t (1 : Fin 3) = 0 ∧ win0_1.index t (2 : Fin 3) = t.val % 2)
    ∧ (win0_2.index t (0 : Fin 3) = t.val / 2 ∧ win0_2.index t (1 : Fin 3) = 0 ∧ win0_2.index t (2 : Fin 3) = t.val % 2)
    ∧ (win0_3.index t (0 : Fin 3) = t.val / 2 ∧ win0_3.index t (1 : Fin 3) = t.val % 2 ∧ win0_3.index t (2 : Fin 3) = 0)
    ∧ (win0_4.index t (0 : Fin 3) = t.val / 2 ∧ win0_4.index t (1 : Fin 3) = 0 ∧ win0_4.index t (2 : Fin 3) = 0) :=
  (by decide +kernel : ∀ t : Fin grid0.N, _)

/-- The expert a grid point works on. -/
def ex (t : Fin cfg0.N) : Fin 64 := ⟨t.val / 2, by have h := t.isLt; have hN : cfg0.N = 128 := N_0; omega⟩

theorem ex_val (t : Fin cfg0.N) : (ex t).val = t.val / 2 := rfl

/-- The token block at point `t` is expert `t / 2`'s tokens. -/
theorem iblk0_apply (c : Dev nD) (t : Fin cfg0.N) (tt : Fin 256) (k : Fin 2048) :
    (iblk m c 0 t : Vec F S1x256x2048 .f32) (ix3 (0 : Fin 1) tt k)
      = (V m c main_v0 : Vec F S64x256x2048 .f32) (ix3 (ex t) tt k) := by
  obtain ⟨⟨h0, h1, h2⟩, -⟩ := idx_facts t
  unfold iblk
  rw [View.read_apply]
  show V m c main_v0 (((cfg0.win 0).blk t).view.emb (ix3 (0 : Fin 1) tt k)) = V m c main_v0 (ix3 (ex t) tt k)
  refine congrArg (V m c main_v0) (funext fun a => Fin.ext ?_)
  match a with
  | ⟨0, _⟩ => show win0_0.index t (0 : Fin 3) * 1 + 1 * 0 = t.val / 2; rw [h0]; omega
  | ⟨1, _⟩ => show win0_0.index t (1 : Fin 3) * 256 + 1 * tt.val = tt.val; rw [h1]; omega
  | ⟨2, _⟩ => show win0_0.index t (2 : Fin 3) * 2048 + 1 * k.val = k.val; rw [h2]; omega

/-- The gate weight block at point `t`: expert `t / 2`'s columns `(t % 2) · 512 + h`. -/
theorem iblk1_apply (c : Dev nD) (t : Fin cfg0.N) (k : Fin 2048) (h : Fin 512) (hh : Fin 1024)
    (e : hh.val = t.val % 2 * 512 + h.val) :
    (iblk m c 1 t : Vec F S1x2048x512 .f32) (ix3 (0 : Fin 1) k h)
      = (V m c main_arg1 : Vec F S64x2048x1024 .f32) (ix3 (ex t) k hh) := by
  obtain ⟨-, ⟨h0, h1, h2⟩, -⟩ := idx_facts t
  unfold iblk
  rw [View.read_apply]
  show V m c main_arg1 (((cfg0.win 1).blk t).view.emb (ix3 (0 : Fin 1) k h)) = V m c main_arg1 (ix3 (ex t) k hh)
  refine congrArg (V m c main_arg1) (funext fun a => Fin.ext ?_)
  match a with
  | ⟨0, _⟩ => show win0_1.index t (0 : Fin 3) * 1 + 1 * 0 = t.val / 2; rw [h0]; omega
  | ⟨1, _⟩ => show win0_1.index t (1 : Fin 3) * 2048 + 1 * k.val = k.val; rw [h1]; omega
  | ⟨2, _⟩ => show win0_1.index t (2 : Fin 3) * 512 + 1 * h.val = hh.val; rw [h2, e]; omega

/-- The up weight block at point `t`: the same columns of the up weights. -/
theorem iblk2_apply (c : Dev nD) (t : Fin cfg0.N) (k : Fin 2048) (h : Fin 512) (hh : Fin 1024)
    (e : hh.val = t.val % 2 * 512 + h.val) :
    (iblk m c 2 t : Vec F S1x2048x512 .f32) (ix3 (0 : Fin 1) k h)
      = (V m c main_arg3 : Vec F S64x2048x1024 .f32) (ix3 (ex t) k hh) := by
  obtain ⟨-, -, ⟨h0, h1, h2⟩, -⟩ := idx_facts t
  unfold iblk
  rw [View.read_apply]
  show V m c main_arg3 (((cfg0.win 2).blk t).view.emb (ix3 (0 : Fin 1) k h)) = V m c main_arg3 (ix3 (ex t) k hh)
  refine congrArg (V m c main_arg3) (funext fun a => Fin.ext ?_)
  match a with
  | ⟨0, _⟩ => show win0_2.index t (0 : Fin 3) * 1 + 1 * 0 = t.val / 2; rw [h0]; omega
  | ⟨1, _⟩ => show win0_2.index t (1 : Fin 3) * 2048 + 1 * k.val = k.val; rw [h1]; omega
  | ⟨2, _⟩ => show win0_2.index t (2 : Fin 3) * 512 + 1 * h.val = hh.val; rw [h2, e]; omega

/-- The down weight block at point `t`: expert `t / 2`'s rows `(t % 2) · 512 + h`. -/
theorem iblk3_apply (c : Dev nD) (t : Fin cfg0.N) (h : Fin 512) (d : Fin 2048) (hh : Fin 1024)
    (e : hh.val = t.val % 2 * 512 + h.val) :
    (iblk m c 3 t : Vec F S1x512x2048 .f32) (ix3 (0 : Fin 1) h d)
      = (V m c main_arg2 : Vec F S64x1024x2048 .f32) (ix3 (ex t) hh d) := by
  obtain ⟨-, -, -, ⟨h0, h1, h2⟩, -⟩ := idx_facts t
  unfold iblk
  rw [View.read_apply]
  show V m c main_arg2 (((cfg0.win 3).blk t).view.emb (ix3 (0 : Fin 1) h d)) = V m c main_arg2 (ix3 (ex t) hh d)
  refine congrArg (V m c main_arg2) (funext fun a => Fin.ext ?_)
  match a with
  | ⟨0, _⟩ => show win0_3.index t (0 : Fin 3) * 1 + 1 * 0 = t.val / 2; rw [h0]; omega
  | ⟨1, _⟩ => show win0_3.index t (1 : Fin 3) * 512 + 1 * h.val = hh.val; rw [h1, e]; omega
  | ⟨2, _⟩ => show win0_3.index t (2 : Fin 3) * 2048 + 1 * d.val = d.val; rw [h2]; omega

/-- Any contents of the result array, read through the output block at point `t`: expert `t / 2`'s rows. -/
theorem read_blk4_apply (c : Dev nD) (t : Fin cfg0.N) (Gv : Buf (Elt F) ((c : Thread nD τ).loc main_v1))
    (u : Fin 1) (tt : Fin 256) (d : Fin 2048) :
    (((cfg0.win 4).blk t).view.read (Elt F) Gv : Vec F S1x256x2048 .f32) (ix3 u tt d)
      = (Gv : Vec F S64x256x2048 .f32) (ix3 (ex t) tt d) := by
  obtain ⟨-, -, -, -, ⟨h0, h1, h2⟩⟩ := idx_facts t
  have hu : u.val = 0 := by omega
  rw [View.read_apply]
  show Gv (((cfg0.win 4).blk t).view.emb (ix3 u tt d)) = Gv (ix3 (ex t) tt d)
  refine congrArg Gv (funext fun a => Fin.ext ?_)
  match a with
  | ⟨0, _⟩ => show win0_4.index t (0 : Fin 3) * 1 + 1 * u.val = t.val / 2; rw [h0, hu]; omega
  | ⟨1, _⟩ => show win0_4.index t (1 : Fin 3) * 256 + 1 * tt.val = tt.val; rw [h1]; omega
  | ⟨2, _⟩ => show win0_4.index t (2 : Fin 3) * 2048 + 1 * d.val = d.val; rw [h2]; omega

end Cert.KernelIdeal.Blocks

end
-- ==== Proof.Payload.lean ====
/-
  The kernel's payloads at the extended reals.

  The body of the kernel computes three pure values from the blocks it loads. Over the extended reals a format change
  is the identity, a matrix product into a zero accumulator is the plain sum of products over the contracted axis, and
  a shape cast that only drops or adds a leading unit axis re-reads the same elements. So:

  * the first payload is the zero array;
  * the second payload, from a token block xb, gate / up weight blocks w1b, w3b, a down weight block w2b and the
    accumulator acc, is at (t, d)
        acc[t,d] + Σ_{h < 512} silu(Σ_k xb[0,t,k]·w1b[0,k,h]) · (Σ_k xb[0,t,k]·w3b[0,k,h]) · w2b[0,h,d],
    which is the specification's step;
  * the third payload re-reads the accumulator under a leading unit axis.
-/
import proofs.«134115_j23682449670360_2_alg».proof.Proof.Gen.KernelIdeal.Skeleton
import proofs.«134115_j23682449670360_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal

/-! ## A matrix product into a zero accumulator, read at an index -/

/-! ### Tokens times a weight block: [256, 2048] × [2048, 512] -/

/-- The left operand's row is the result's row. -/
theorem mmIn_lhs_0 (i : S256x512.Idx) (q : dot_S256x2048_S2048x512_S256x512_1_0_0_1_n_n.contr.Idx) :
    (dot_S256x2048_S2048x512_S256x512_1_0_0_1_n_n.lhsIdx i q 0).val = (i 0).val := by
  unfold DotDims.lhsIdx
  rw [dif_neg (show ¬(0 : Fin S256x2048.rank) ∈ dot_S256x2048_S2048x512_S256x512_1_0_0_1_n_n.lhsBatch by decide), dif_pos (show (0 : Fin S256x2048.rank) ∈ dot_S256x2048_S2048x512_S256x512_1_0_0_1_n_n.lhsNonContracting by decide)]
  rfl
/-- The left operand's column is the contraction position. -/
theorem mmIn_lhs_1 (i : S256x512.Idx) (q : dot_S256x2048_S2048x512_S256x512_1_0_0_1_n_n.contr.Idx) :
    (dot_S256x2048_S2048x512_S256x512_1_0_0_1_n_n.lhsIdx i q 1).val = (q ⟨0, by decide⟩).val :=
  dot_S256x2048_S2048x512_S256x512_1_0_0_1_n_n.lhsIdx_val_of_single rfl i q
/-- The right operand's row is the contraction position. -/
theorem mmIn_rhs_0 (i : S256x512.Idx) (q : dot_S256x2048_S2048x512_S256x512_1_0_0_1_n_n.contr.Idx) :
    (dot_S256x2048_S2048x512_S256x512_1_0_0_1_n_n.rhsIdx i q 0).val = (q ⟨0, by decide⟩).val :=
  dot_S256x2048_S2048x512_S256x512_1_0_0_1_n_n.rhsIdx_val_of_single rfl i q
/-- The right operand's column is the result's column. -/
theorem mmIn_rhs_1 (i : S256x512.Idx) (q : dot_S256x2048_S2048x512_S256x512_1_0_0_1_n_n.contr.Idx) :
    (dot_S256x2048_S2048x512_S256x512_1_0_0_1_n_n.rhsIdx i q 1).val = (i 1).val := by
  unfold DotDims.rhsIdx
  rw [dif_neg (show ¬(1 : Fin S2048x512.rank) ∈ dot_S256x2048_S2048x512_S256x512_1_0_0_1_n_n.rhsBatch by decide), dif_pos (show (1 : Fin S2048x512.rank) ∈ dot_S256x2048_S2048x512_S256x512_1_0_0_1_n_n.rhsNonContracting by decide)]
  rfl

/-- At (r, c) the product [256, 2048] × [2048, 512] into a zero accumulator is Σ_k x[r,k] · w[k,c]: the sum over the one
    contracted axis, re-indexed by that axis's coordinate. -/
theorem mmIn_apply {φ₁ φ₂ : FTy} (x : FVec Ideal S256x2048 φ₁) (w : FVec Ideal S2048x512 φ₂) (r : Fin 256) (c : Fin 512) :
    matmul dot_S256x2048_S2048x512_S256x512_1_0_0_1_n_n none x w (constant S256x512 .f32 0x00000000#32) (ix2 r c)
      = ∑ k : Fin 2048, x (ix2 r k) * w (ix2 k c) := by
  refine (Ideal.matmul_constant_zero_apply dot_S256x2048_S2048x512_S256x512_1_0_0_1_n_n none x w (ix2 r c)).trans ?_
  rw [← Equiv.sum_comp (contrEquiv1 dot_S256x2048_S2048x512_S256x512_1_0_0_1_n_n 2048 rfl rfl).symm]
  refine Finset.sum_congr rfl fun k _ => ?_
  have hk := contrEquiv1_symm_val dot_S256x2048_S2048x512_S256x512_1_0_0_1_n_n 2048 rfl rfl k
  have el : dot_S256x2048_S2048x512_S256x512_1_0_0_1_n_n.lhsIdx (ix2 r c) ((contrEquiv1 dot_S256x2048_S2048x512_S256x512_1_0_0_1_n_n 2048 rfl rfl).symm k) = ix2 r k := funext fun a => Fin.ext (by
    match a with
    | ⟨0, _⟩ => exact mmIn_lhs_0 _ _
    | ⟨1, _⟩ => exact (mmIn_lhs_1 _ _).trans hk)
  have er : dot_S256x2048_S2048x512_S256x512_1_0_0_1_n_n.rhsIdx (ix2 r c) ((contrEquiv1 dot_S256x2048_S2048x512_S256x512_1_0_0_1_n_n 2048 rfl rfl).symm k) = ix2 k c := funext fun a => Fin.ext (by
    match a with
    | ⟨0, _⟩ => exact (mmIn_rhs_0 _ _).trans hk
    | ⟨1, _⟩ => exact mmIn_rhs_1 _ _)
  rw [el, er]

/-! ### Hidden activations times the down block: [256, 512] × [512, 2048] -/

/-- The left operand's row is the result's row. -/
theorem mmOut_lhs_0 (i : S256x2048.Idx) (q : dot_S256x512_S512x2048_S256x2048_1_0_0_1_n_n.contr.Idx) :
    (dot_S256x512_S512x2048_S256x2048_1_0_0_1_n_n.lhsIdx i q 0).val = (i 0).val := by
  unfold DotDims.lhsIdx
  rw [dif_neg (show ¬(0 : Fin S256x512.rank) ∈ dot_S256x512_S512x2048_S256x2048_1_0_0_1_n_n.lhsBatch by decide), dif_pos (show (0 : Fin S256x512.rank) ∈ dot_S256x512_S512x2048_S256x2048_1_0_0_1_n_n.lhsNonContracting by decide)]
  rfl
/-- The left operand's column is the contraction position. -/
theorem mmOut_lhs_1 (i : S256x2048.Idx) (q : dot_S256x512_S512x2048_S256x2048_1_0_0_1_n_n.contr.Idx) :
    (dot_S256x512_S512x2048_S256x2048_1_0_0_1_n_n.lhsIdx i q 1).val = (q ⟨0, by decide⟩).val :=
  dot_S256x512_S512x2048_S256x2048_1_0_0_1_n_n.lhsIdx_val_of_single rfl i q
/-- The right operand's row is the contraction position. -/
theorem mmOut_rhs_0 (i : S256x2048.Idx) (q : dot_S256x512_S512x2048_S256x2048_1_0_0_1_n_n.contr.Idx) :
    (dot_S256x512_S512x2048_S256x2048_1_0_0_1_n_n.rhsIdx i q 0).val = (q ⟨0, by decide⟩).val :=
  dot_S256x512_S512x2048_S256x2048_1_0_0_1_n_n.rhsIdx_val_of_single rfl i q
/-- The right operand's column is the result's column. -/
theorem mmOut_rhs_1 (i : S256x2048.Idx) (q : dot_S256x512_S512x2048_S256x2048_1_0_0_1_n_n.contr.Idx) :
    (dot_S256x512_S512x2048_S256x2048_1_0_0_1_n_n.rhsIdx i q 1).val = (i 1).val := by
  unfold DotDims.rhsIdx
  rw [dif_neg (show ¬(1 : Fin S512x2048.rank) ∈ dot_S256x512_S512x2048_S256x2048_1_0_0_1_n_n.rhsBatch by decide), dif_pos (show (1 : Fin S512x2048.rank) ∈ dot_S256x512_S512x2048_S256x2048_1_0_0_1_n_n.rhsNonContracting by decide)]
  rfl

/-- At (r, c) the product [256, 512] × [512, 2048] into a zero accumulator is Σ_k x[r,k] · w[k,c]: the sum over the one
    contracted axis, re-indexed by that axis's coordinate. -/
theorem mmOut_apply {φ₁ φ₂ : FTy} (x : FVec Ideal S256x512 φ₁) (w : FVec Ideal S512x2048 φ₂) (r : Fin 256) (c : Fin 2048) :
    matmul dot_S256x512_S512x2048_S256x2048_1_0_0_1_n_n none x w (constant S256x2048 .f32 0x00000000#32) (ix2 r c)
      = ∑ k : Fin 512, x (ix2 r k) * w (ix2 k c) := by
  refine (Ideal.matmul_constant_zero_apply dot_S256x512_S512x2048_S256x2048_1_0_0_1_n_n none x w (ix2 r c)).trans ?_
  rw [← Equiv.sum_comp (contrEquiv1 dot_S256x512_S512x2048_S256x2048_1_0_0_1_n_n 512 rfl rfl).symm]
  refine Finset.sum_congr rfl fun k _ => ?_
  have hk := contrEquiv1_symm_val dot_S256x512_S512x2048_S256x2048_1_0_0_1_n_n 512 rfl rfl k
  have el : dot_S256x512_S512x2048_S256x2048_1_0_0_1_n_n.lhsIdx (ix2 r c) ((contrEquiv1 dot_S256x512_S512x2048_S256x2048_1_0_0_1_n_n 512 rfl rfl).symm k) = ix2 r k := funext fun a => Fin.ext (by
    match a with
    | ⟨0, _⟩ => exact mmOut_lhs_0 _ _
    | ⟨1, _⟩ => exact (mmOut_lhs_1 _ _).trans hk)
  have er : dot_S256x512_S512x2048_S256x2048_1_0_0_1_n_n.rhsIdx (ix2 r c) ((contrEquiv1 dot_S256x512_S512x2048_S256x2048_1_0_0_1_n_n 512 rfl rfl).symm k) = ix2 k c := funext fun a => Fin.ext (by
    match a with
    | ⟨0, _⟩ => exact (mmOut_rhs_0 _ _).trans hk
    | ⟨1, _⟩ => exact mmOut_rhs_1 _ _)
  rw [el, er]

/-! ## The projections of a token block on a weight block -/

/-- A token block times a gate or up weight block, each with its unit expert axis dropped and narrowed (the identity on
    extended reals): at (t, h) it is the specification's block projection Σ_k xb[0,t,k] · wb[0,k,h]. -/
theorem proj_apply (xb : Vec Ideal S1x256x2048 .f32) (wb : Vec Ideal S1x2048x512 .f32)
    (hx : S1x256x2048.ShapeCasts S256x2048) (hw : S1x2048x512.ShapeCasts S2048x512)
    (hb : FTy.bits .bf16 < FTy.bits .f32) (t : Fin 256) (h : Fin 512) :
    matmul dot_S256x2048_S2048x512_S256x512_1_0_0_1_n_n none
        (truncf .bf16 (shapeCast S256x2048 xb hx : FVec Ideal S256x2048 .f32) hb)
        (truncf .bf16 (shapeCast S2048x512 wb hw : FVec Ideal S2048x512 .f32) hb)
        (constant S256x512 .f32 0x00000000#32) (ix2 t h)
      = Cert.Spec.projB xb wb t h := by
  refine (mmIn_apply _ _ t h).trans ?_
  unfold Cert.Spec.projB
  refine Finset.sum_congr rfl fun k _ => ?_
  show shapeCast S256x2048 xb hx (ix2 t k) * shapeCast S2048x512 wb hw (ix2 k h)
    = xb (ix3 (0 : Fin 1) t k) * wb (ix3 (0 : Fin 1) k h)
  rw [shapeCast_1ab_ab_apply xb hx t k, shapeCast_1ab_ab_apply wb hw k h]

/-! ## The three payloads -/

/-- The first payload is the zero array: a broadcast of the word of 0.0, cast to its own shape. -/
theorem pay1_apply (j : Cert.KernelIdeal.S256x2048.Idx) : Cert.KernelIdeal.Gen.k0_pay1 (F := Ideal) j = 0 := by
  unfold Gen.k0_pay1
  refine (congrFun (shapeCast_self _ _) j).trans ?_
  exact Ideal.ofBits_zero_f32

/-- The second payload is the specification's step: the accumulator plus the gated hidden activations of this block's
    512 hidden units times the down block. -/
theorem pay2_eq (v3 : Vec Ideal Cert.KernelIdeal.S1x256x2048 .f32) (v6 v9 : Vec Ideal Cert.KernelIdeal.S1x2048x512 .f32) (v18 : Vec Ideal Cert.KernelIdeal.S1x512x2048 .f32) (v21 : Vec Ideal Cert.KernelIdeal.S256x2048 .f32) :
    Cert.KernelIdeal.Gen.k0_pay2 (F := Ideal) v3 v6 v9 v18 v21 = Cert.Spec.step v3 v6 v9 v18 v21 := by
  funext j
  obtain ⟨t, d, rfl⟩ : ∃ (t : Fin 256) (d : Fin 2048), j = ix2 t d := ⟨j 0, j 1, eq_ix2 j⟩
  refine Eq.trans ?_ (Cert.Spec.step_ix2 v3 v6 v9 v18 v21 t d).symm
  unfold Gen.k0_pay2 Cert.Spec.stepAt
  refine (congrFun (shapeCast_self _ _) (ix2 t d)).trans ?_
  refine congrArg (v21 (ix2 t d) + ·) ?_
  refine (mmOut_apply _ _ t d).trans ?_
  refine Finset.sum_congr rfl fun h _ => ?_
  refine congrArg₂ (· * ·) ?_ (shapeCast_1ab_ab_apply v18 _ h d)
  unfold Cert.Spec.hiddenB Cert.Spec.silu
  refine congrArg₂ (· * ·) (congrArg₂ (· * ·) ?_ (congrArg Ideal.logistic ?_)) ?_
  · exact proj_apply v3 v6 _ _ _ t h
  · exact proj_apply v3 v6 _ _ _ t h
  · exact proj_apply v3 v9 _ _ _ t h

/-- The third payload re-reads the accumulator under a leading unit axis. -/
theorem pay3_apply (v30 : Vec Ideal Cert.KernelIdeal.S256x2048 .f32) (u : Fin 1) (t : Fin 256) (d : Fin 2048) :
    Cert.KernelIdeal.Gen.k0_pay3 (F := Ideal) v30 (ValueIdx.ix3 u t d) = v30 (ValueIdx.ix2 t d) := by
  unfold Gen.k0_pay3
  exact shapeCast_ab_1ab_apply v30 _ u t d

end Cert.KernelIdeal.Payload

end
-- ==== Proof.Ends.lean ====
/-
  The two reshapes around the kernel launch.

  Before the launch the tokens [16384, 2048] are regrouped by expert into [64, 256, 2048]; after it the result
  [64, 256, 2048] is flattened back to [16384, 2048]. So the array the launch's first window reads is the reshape of
  the first argument, and the program's result is the reshape of what the launch leaves in its output array.
-/
import proofs.«134115_j23682449670360_2_alg».proof.Proof.Gen.KernelIdeal.Frame
import Idealize.ShloMosaic.Lib.StableHlo.Run
import Idealize.ShloMosaic.Lib.Pipeline.Value

noncomputable section

open Idealize.ShloMosaic Idealize.ShloMosaic.TcCoe Idealize.SL.Sem

namespace Cert.KernelIdeal.Ends

open Cert.KernelIdeal Cert.KernelIdeal.Gen

variable {F : FTy → Type} [FloatOps F]
variable (m : (ℓ : Loc nD τ sig) → Buf (Elt F) ℓ)

/-- What the launch finds in its first window's array: the tokens regrouped by expert. -/
theorem V_main_v0 (c : Dev nD) :
    (V m c main_v0 : Vec F S64x256x2048 .f32)
      = shapeCast S64x256x2048 (m ((c : Thread nD τ).loc main_arg0)) shapeCasts_S16384x2048_S64x256x2048 := by
  show StableHlo.after hostOps0 (fun b => m (c, b)) (Proc.devRef .tc main_v0) = _
  after_results
  rfl

/-- The program's result: what the launch leaves in its output array, flattened. -/
theorem result_eq (c : Dev nD) :
    (Pipeline.afterTail₀ cfgs (dats m) 0 (V0 m) [hostOps1] c main_v2 : Vec F S16384x2048 .f32)
      = shapeCast S16384x2048 ((dats m 0 c).arrAt 4 cfg0.N) shapeCasts_S64x256x2048_S16384x2048 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = (dats m 0 c).arrAt 4 cfg0.N :=
    Pipeline.withArrays_arr spec0 launch0.win.arr_inj c (V0 m c) (fun w => (dats m 0 c).arrAt w (cfgs 0).N) 4
  rw [hw]
  rfl

end Cert.KernelIdeal.Ends

end
-- ==== Proof.Value.lean ====
/-
  What the kernel's result array holds after the run, over the extended reals.

  The grid's 128 points come in pairs: points 2e and 2e + 1 work on expert e, the first on hidden units 0 … 511, the
  second on 512 … 1023. The accumulator is zeroed at the first point of a pair and carried to the second, and the
  second point alone writes the output block back. So the block written back at point 2e + 1 is the accumulator
  after two steps from zero, which is expert e's rows of the whole function `G` (`Spec.two_steps`); those 64 blocks
  tile the result array, so it ends holding `G` of the arrays the launch found (`final`), and the program's result
  is that array flattened (`run`).
-/
import proofs.«134115_j23682449670360_2_alg».proof.Proof.Gen.KernelIdeal.Frame
import proofs.«134115_j23682449670360_2_alg».proof.Proof.Spec
import proofs.«134115_j23682449670360_2_alg».proof.Proof.Pieces
import proofs.«134115_j23682449670360_2_alg».proof.Proof.Blocks
import proofs.«134115_j23682449670360_2_alg».proof.Proof.Payload
import proofs.«134115_j23682449670360_2_alg».proof.Proof.Ends
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen

variable (m : (ℓ : Loc nD τ sig) → Buf (Elt Ideal) ℓ) (ρ : Dev nD → PrngReg)

/-- The launch's result array: `G` of the arrays the launch finds — the tokens regrouped by expert, the gate, up
    and down weights. -/
def mid (c : Dev nD) : Buf (Elt Ideal) ((c : Thread nD τ).loc main_v1) :=
  Cert.Spec.G (V m c main_v0) (V m c main_arg1) (V m c main_arg3) (V m c main_arg2)

/-- Two accumulate steps from the zero fill, then the unit axis added: when the blocks are restrictions of whole
    arrays as in `Spec.two_steps`, the result at (·, tt, d) is expert `e`'s entry of the down projection. -/
theorem pair_apply (xe : FVec Ideal Cert.Spec.SX .f32) (w1 w3 : FVec Ideal Cert.Spec.SW13 .f32)
    (w2 : FVec Ideal Cert.Spec.SW2 .f32) (e : Fin 64)
    (xa xb : Vec Ideal S1x256x2048 .f32) (w1a w3a w1b w3b : Vec Ideal S1x2048x512 .f32) (w2a w2b : Vec Ideal S1x512x2048 .f32)
    (hxa : ∀ t k, xa (ix3 (0 : Fin 1) t k) = xe (ix3 e t k))
    (hxb : ∀ t k, xb (ix3 (0 : Fin 1) t k) = xe (ix3 e t k))
    (h1a : ∀ k h, w1a (ix3 (0 : Fin 1) k h) = w1 (ix3 e k (Cert.Spec.lo h)))
    (h3a : ∀ k h, w3a (ix3 (0 : Fin 1) k h) = w3 (ix3 e k (Cert.Spec.lo h)))
    (h2a : ∀ h d, w2a (ix3 (0 : Fin 1) h d) = w2 (ix3 e (Cert.Spec.lo h) d))
    (h1b : ∀ k h, w1b (ix3 (0 : Fin 1) k h) = w1 (ix3 e k (Cert.Spec.hi h)))
    (h3b : ∀ k h, w3b (ix3 (0 : Fin 1) k h) = w3 (ix3 e k (Cert.Spec.hi h)))
    (h2b : ∀ h d, w2b (ix3 (0 : Fin 1) h d) = w2 (ix3 e (Cert.Spec.hi h) d))
    (u : Fin 1) (tt : Fin 256) (d : Fin 2048) :
    k0_pay3 (F := Ideal) (k0_pay2 xb w1b w3b w2b (k0_pay2 xa w1a w3a w2a (k0_pay1 (F := Ideal)))) (ix3 u tt d)
      = Cert.Spec.outAt xe w1 w3 w2 e tt d := by
  rw [Payload.pay3_apply, Payload.pay2_eq, Payload.pay2_eq, Cert.Spec.step_ix2]
  exact Cert.Spec.two_steps xe w1 w3 w2 e xa xb w1a w3a w1b w3b w2a w2b (k0_pay1 (F := Ideal)) Payload.pay1_apply
    hxa hxb h1a h3a h2a h1b h3b h2b tt d

/-- After the first point of a pair the accumulator holds one step from the zero fill. -/
theorem acc_after_first (c : Dev nD) (ta : Fin cfg0.N) (h0 : ta.val % 2 = 0) :
    (outsAt0 m c ta.val ta.isLt).2
      = k0_pay2 (iblk m c 0 ta) (iblk m c 1 ta) (iblk m c 2 ta) (iblk m c 3 ta) (k0_pay1 (F := Ideal)) := by
  have h1 : ¬ta.val % 2 = 1 := by omega
  rw [outsAt0_A m c ta h0 h1]
  dsimp only
  rw [Pieces.sout_A]

/-- After the second point the output block holds the accumulator the first point left, one more step, with the
    unit axis added. -/
theorem out_after_second (c : Dev nD) (t : Fin cfg0.N) (h1 : t.val % 2 = 1) :
    (outsAt0 m c t.val t.isLt).1
      = k0_pay3 (k0_pay2 (iblk m c 0 t) (iblk m c 1 t) (iblk m c 2 t) (iblk m c 3 t)
          (outsAt0 m c (t.val - 1) (Nat.lt_of_le_of_lt (Nat.sub_le _ _) t.isLt)).2) := by
  have h0 : ¬t.val % 2 = 0 := by omega
  rw [outsAt0_B m c t h0 h1]
  dsimp only
  rw [Pieces.out_B]

/-- What a write-back writes is the block of `G` at that point. -/
theorem flushed_eq (c : Dev nD) (t : Fin cfg0.N) (hf : (cfg0.win 4).flush t = true) :
    (dats m 0 c).flushed 4 t = ((cfg0.win 4).blk t).view.read (Elt Ideal) (mid m c) := by
  have hN : cfg0.N = 128 := N_0
  have ht := t.isLt
  have h1 : t.val % 2 = 1 := (flush0_4 t).mp hf
  have hlt : t.val - 1 < cfg0.N := by omega
  have ha0 : (⟨t.val - 1, hlt⟩ : Fin cfg0.N).val % 2 = 0 := by show (t.val - 1) % 2 = 0; omega
  have hex : Blocks.ex ⟨t.val - 1, hlt⟩ = Blocks.ex t := Fin.ext (by show (t.val - 1) / 2 = t.val / 2; omega)
  have hpa : (⟨t.val - 1, hlt⟩ : Fin cfg0.N).val % 2 = 0 := ha0
  show (cfg0.win 4).cut (grid0.coords t) ((dats m 0 c).after 4 t) = _
  rw [after0_4, out_after_second m c t h1]
  have hA := acc_after_first m c ⟨t.val - 1, hlt⟩ ha0
  funext y
  obtain ⟨u, tt, d, rfl⟩ : ∃ (u : Fin 1) (tt : Fin 256) (d : Fin 2048), y = ix3 u tt d := ⟨y 0, y 1, y 2, eq_ix3 y⟩
  refine Eq.trans ?_ (Blocks.read_blk4_apply c t (mid m c) u tt d).symm
  show k0_pay3 (F := Ideal) (k0_pay2 (iblk m c 0 t) (iblk m c 1 t) (iblk m c 2 t) (iblk m c 3 t)
      (outsAt0 m c (t.val - 1) (Nat.lt_of_le_of_lt (Nat.sub_le _ _) t.isLt)).2) (ix3 u tt d)
    = Cert.Spec.outAt (V m c main_v0) (V m c main_arg1) (V m c main_arg3) (V m c main_arg2) (Blocks.ex t) tt d
  rw [show (outsAt0 m c (t.val - 1) (Nat.lt_of_le_of_lt (Nat.sub_le _ _) t.isLt)).2
      = k0_pay2 (iblk m c 0 ⟨t.val - 1, hlt⟩) (iblk m c 1 ⟨t.val - 1, hlt⟩) (iblk m c 2 ⟨t.val - 1, hlt⟩) (iblk m c 3 ⟨t.val - 1, hlt⟩) (k0_pay1 (F := Ideal)) from hA]
  exact pair_apply (V m c main_v0) (V m c main_arg1) (V m c main_arg3) (V m c main_arg2) (Blocks.ex t)
    (iblk m c 0 ⟨t.val - 1, hlt⟩) (iblk m c 0 t) (iblk m c 1 ⟨t.val - 1, hlt⟩) (iblk m c 2 ⟨t.val - 1, hlt⟩)
    (iblk m c 1 t) (iblk m c 2 t) (iblk m c 3 ⟨t.val - 1, hlt⟩) (iblk m c 3 t)
    (fun tt k => (Blocks.iblk0_apply m c ⟨t.val - 1, hlt⟩ tt k).trans (by rw [hex]))
    (fun tt k => Blocks.iblk0_apply m c t tt k)
    (fun k h => (Blocks.iblk1_apply m c ⟨t.val - 1, hlt⟩ k h (Cert.Spec.lo h) (by show h.val = (t.val - 1) % 2 * 512 + h.val; omega)).trans (by rw [hex]))
    (fun k h => (Blocks.iblk2_apply m c ⟨t.val - 1, hlt⟩ k h (Cert.Spec.lo h) (by show h.val = (t.val - 1) % 2 * 512 + h.val; omega)).trans (by rw [hex]))
    (fun h d => (Blocks.iblk3_apply m c ⟨t.val - 1, hlt⟩ h d (Cert.Spec.lo h) (by show h.val = (t.val - 1) % 2 * 512 + h.val; omega)).trans (by rw [hex]))
    (fun k h => Blocks.iblk1_apply m c t k h (Cert.Spec.hi h) (by show 512 + h.val = t.val % 2 * 512 + h.val; omega))
    (fun k h => Blocks.iblk2_apply m c t k h (Cert.Spec.hi h) (by show 512 + h.val = t.val % 2 * 512 + h.val; omega))
    (fun h d => Blocks.iblk3_apply m c t h d (Cert.Spec.hi h) (by show 512 + h.val = t.val % 2 * 512 + h.val; omega))
    u tt d

/-- Membership in the output block at point `t`, axis by axis. -/
theorem mem_blk4 (t : Fin cfg0.N) (i : S64x256x2048.Idx) :
    i ∈ ((cfg0.win 4).blk t).view.set ↔
      ∀ a : Fin 3, win0_4.index t a * win0_4.size a ≤ (i a : Nat) ∧ (i a : Nat) < win0_4.index t a * win0_4.size a + win0_4.xsize (grid0.coords t) a := by
  show i ∈ ((View.whole main_v1).slice (win0_4.rect t)).set ↔ _
  rw [View.set_slice_whole, Rect.mem_set_unit]
  exact Iff.rfl

/-- The 64 blocks written back tile the result array, so it ends holding `G`. -/
theorem final (c : Dev nD) : (dats m 0 c).arrAt 4 cfg0.N = mid m c :=
  (dats m 0 c).arrAt_eq_of_cover 4 (mid m c) (flushed_eq m c) fun i => by
    have hN : cfg0.N = 128 := N_0
    have hi0 : (i 0 : Nat) < 64 := (i 0).isLt
    have hi1 : (i 1 : Nat) < 256 := (i 1).isLt
    have hi2 : (i 2 : Nat) < 2048 := (i 2).isLt
    have hlt : 2 * (i 0 : Nat) + 1 < cfg0.N := by omega
    refine ⟨⟨2 * (i 0 : Nat) + 1, hlt⟩, (flush0_4 _).mpr (by show (2 * (i 0 : Nat) + 1) % 2 = 1; omega), ?_⟩
    obtain ⟨-, -, -, -, ⟨h0, h1, h2⟩⟩ := Blocks.idx_facts ⟨2 * (i 0 : Nat) + 1, hlt⟩
    rw [mem_blk4]
    intro a
    match a with
    | ⟨0, _⟩ =>
      show win0_4.index ⟨2 * (i 0 : Nat) + 1, hlt⟩ (0 : Fin 3) * 1 ≤ (i 0 : Nat) ∧ (i 0 : Nat) < win0_4.index ⟨2 * (i 0 : Nat) + 1, hlt⟩ (0 : Fin 3) * 1 + 1
      rw [h0]; show (2 * (i 0 : Nat) + 1) / 2 * 1 ≤ (i 0 : Nat) ∧ (i 0 : Nat) < (2 * (i 0 : Nat) + 1) / 2 * 1 + 1; omega
    | ⟨1, _⟩ =>
      show win0_4.index ⟨2 * (i 0 : Nat) + 1, hlt⟩ (1 : Fin 3) * 256 ≤ (i 1 : Nat) ∧ (i 1 : Nat) < win0_4.index ⟨2 * (i 0 : Nat) + 1, hlt⟩ (1 : Fin 3) * 256 + 256
      rw [h1]; omega
    | ⟨2, _⟩ =>
      show win0_4.index ⟨2 * (i 0 : Nat) + 1, hlt⟩ (2 : Fin 3) * 2048 ≤ (i 2 : Nat) ∧ (i 2 : Nat) < win0_4.index ⟨2 * (i 0 : Nat) + 1, hlt⟩ (2 : Fin 3) * 2048 + 2048
      rw [h2]; omega

/-- The function of the argument arrays the program computes: regroup the tokens, `G`, flatten. -/
def result (x : Vec Ideal S16384x2048 .f32) (w1 : Vec Ideal S64x2048x1024 .f32) (w2 : Vec Ideal S64x1024x2048 .f32)
    (w3 : Vec Ideal S64x2048x1024 .f32) : Vec Ideal S16384x2048 .f32 :=
  shapeCast S16384x2048
    (Cert.Spec.G (shapeCast S64x256x2048 x shapeCasts_S16384x2048_S64x256x2048) w1 w3 w2 : Vec Ideal S64x256x2048 .f32)
    shapeCasts_S64x256x2048_S16384x2048

/-- The program's result buffer, through the flattening after the launch, is `result` of the arguments. -/
theorem result_eq (c : Dev nD) :
    (Pipeline.afterTail₀ cfgs (dats m) 0 (V0 m) [hostOps1] c main_v2 : Vec Ideal S16384x2048 .f32)
      = result (m ((c.tc : Thread nD τ).loc main_arg0)) (m ((c.tc : Thread nD τ).loc main_arg1))
          (m ((c.tc : Thread nD τ).loc main_arg2)) (m ((c.tc : Thread nD τ).loc main_arg3)) := by
  rw [Ends.result_eq m c, final m c]
  unfold mid result
  rw [Ends.V_main_v0 m c, V_main_arg1 m c, V_main_arg2 m c, V_main_arg3 m c]

/-- The run, read: every weakly fair execution ends with the result buffer at `result` of the arguments' launch
    contents, the arguments unchanged. -/
theorem run : θ_run defs (onTc (τ := τ) (main (F := Ideal))) ⟨m, fun _ => 0, ρ⟩ fun r => ∀ c : Dev nD,
      r.2.mem ((c.tc : Thread nD τ).loc main_v2)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v2 (Pipeline.mem_restRefs_of main_v2 (by decide) (by decide))).trans (result_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c))⟩)
    (run_main m ρ)

end Cert.KernelIdeal.Value

end
-- ==== Proof.RefValue.lean ====
/-
  The reference program computes the function `G` of the specification.

  Read one operation at a time, the reference is: the tokens regrouped by expert, `xe : [64, 256, 2048]`; the gate
  projection `g[e,t,h] = Σ_k xe[e,t,k] · w1[e,k,h]`; the gate's `silu`, spelt out as `g · (1 / (1 + e^(-g)))` with the
  literal one given by its binary word; the up projection `u[e,t,h] = Σ_k xe[e,t,k] · w3[e,k,h]`; their product
  `silu g · u`; and the down projection `Σ_h (silu g · u)[e,t,h] · w2[e,h,d]`. Over the extended reals each of these
  is, element by element, the expression the specification writes: `proj`, `silu`, `hidden`, `outAt`. Nothing is
  rearranged, so no finiteness is needed: the two sides are the same expression.
-/
import proofs.«134115_j23682449670360_2_alg».proof.Proof.Gen.ReferenceIdeal.Read
import proofs.«134115_j23682449670360_2_alg».proof.Proof.Spec
import Idealize.ShloMosaic.PureOps.IdealRules

noncomputable section

namespace Cert.ReferenceIdeal.RefValue

open Cert.ReferenceIdeal Cert.ReferenceIdeal.Read Idealize.ShloMosaic Idealize.ShloMosaic.ValueIdx

/-! ## Where a contraction reads its operands

  A batched contraction over the last axis of the left operand and the middle axis of the right one reads, for the
  result's element `(e, t, h)` and the summation index `k`, the left operand at `(e, t, k)` and the right at `(e, k, h)`. -/

theorem lidx1 (e : Fin 64) (t : Fin 256) (h : Fin 1024) (k : Fin 2048) :
    lidx_main_v1 (ix3 e t h) k = ix3 e t k :=
  funext fun a => Fin.ext (by match a with | ⟨0, _⟩ => rfl | ⟨1, _⟩ => rfl | ⟨2, _⟩ => rfl)

theorem ridx1 (e : Fin 64) (t : Fin 256) (h : Fin 1024) (k : Fin 2048) :
    ridx_main_v1 (ix3 e t h) k = ix3 e k h :=
  funext fun a => Fin.ext (by match a with | ⟨0, _⟩ => rfl | ⟨1, _⟩ => rfl | ⟨2, _⟩ => rfl)

theorem lidx3 (e : Fin 64) (t : Fin 256) (h : Fin 1024) (k : Fin 2048) :
    lidx_main_v3 (ix3 e t h) k = ix3 e t k :=
  funext fun a => Fin.ext (by match a with | ⟨0, _⟩ => rfl | ⟨1, _⟩ => rfl | ⟨2, _⟩ => rfl)

theorem ridx3 (e : Fin 64) (t : Fin 256) (h : Fin 1024) (k : Fin 2048) :
    ridx_main_v3 (ix3 e t h) k = ix3 e k h :=
  funext fun a => Fin.ext (by match a with | ⟨0, _⟩ => rfl | ⟨1, _⟩ => rfl | ⟨2, _⟩ => rfl)

theorem lidx5 (e : Fin 64) (t : Fin 256) (d : Fin 2048) (h : Fin 1024) :
    lidx_main_v5 (ix3 e t d) h = ix3 e t h :=
  funext fun a => Fin.ext (by match a with | ⟨0, _⟩ => rfl | ⟨1, _⟩ => rfl | ⟨2, _⟩ => rfl)

theorem ridx5 (e : Fin 64) (t : Fin 256) (d : Fin 2048) (h : Fin 1024) :
    ridx_main_v5 (ix3 e t d) h = ix3 e h d :=
  funext fun a => Fin.ext (by match a with | ⟨0, _⟩ => rfl | ⟨1, _⟩ => rfl | ⟨2, _⟩ => rfl)

/-! ## The operations, element by element -/

/-- The gate projection is `proj` with the gate weights: `Σ_k xe[e,t,k] · w1[e,k,h]`. -/
theorem gate_eq (x0 : (⟨S16384x2048, .f32⟩ : BufTy).Contents (Elt Ideal))
    (x1 : (⟨S64x2048x1024, .f32⟩ : BufTy).Contents (Elt Ideal)) (e : Fin 64) (t : Fin 256) (h : Fin 1024) :
    val_main_v1 (F := Ideal) x0 x1 (ix3 e t h) = Cert.Spec.proj (val_main_v0 (F := Ideal) x0) x1 e t h := by
  rw [val_main_v1_apply]
  unfold Cert.Spec.proj
  refine Finset.sum_congr rfl fun k _ => ?_
  rw [lidx1, ridx1]

/-- The up projection is `proj` with the up weights: `Σ_k xe[e,t,k] · w3[e,k,h]`. -/
theorem up_eq (x0 : (⟨S16384x2048, .f32⟩ : BufTy).Contents (Elt Ideal))
    (x3 : (⟨S64x2048x1024, .f32⟩ : BufTy).Contents (Elt Ideal)) (e : Fin 64) (t : Fin 256) (h : Fin 1024) :
    val_main_v3 (F := Ideal) x0 x3 (ix3 e t h) = Cert.Spec.proj (val_main_v0 (F := Ideal) x0) x3 e t h := by
  rw [val_main_v3_apply]
  unfold Cert.Spec.proj
  refine Finset.sum_congr rfl fun k _ => ?_
  rw [lidx3, ridx3]

/-- The binary word `0x3F800000` is the number one. -/
theorem one_word : Ideal.ofBits .f32 0x3F800000#32 = 1 := IdealRules.sign_bit.ideal_onePat .f32

/-- The two constant arrays of the spelt-out logistic function hold one everywhere. -/
theorem ones_a (i : S64x256x1024.Idx) : val_main_call0_v2 (F := Ideal) i = 1 := by
  rw [val_main_call0_v2_apply, val_main_call0_cst_apply, Ideal.ofBits_def, one_word]

theorem ones_b (i : S64x256x1024.Idx) : val_main_call0_v4 (F := Ideal) i = 1 := by
  rw [val_main_call0_v4_apply, val_main_call0_cst_0_apply, Ideal.ofBits_def, one_word]

/-- `g · (1 / (1 + e^(-g)))` is `silu g`, `g` the gate projection. -/
theorem silu_eq (x0 : (⟨S16384x2048, .f32⟩ : BufTy).Contents (Elt Ideal))
    (x1 : (⟨S64x2048x1024, .f32⟩ : BufTy).Contents (Elt Ideal)) (e : Fin 64) (t : Fin 256) (h : Fin 1024) :
    val_main_v2 (F := Ideal) x0 x1 (ix3 e t h)
      = Cert.Spec.silu (Cert.Spec.proj (val_main_v0 (F := Ideal) x0) x1 e t h) := by
  rw [val_main_v2_apply, val_main_call0_v5_apply, val_main_call0_v3_apply, val_main_call0_v1_apply,
    val_main_call0_v0_apply, ones_a, ones_b, gate_eq]
  simp only [Ideal.mulf_def, Ideal.addf_def, Ideal.hostDivf_def, Ideal.hostNegf_def, Ideal.negf_def,
    Ideal.hostUnary_exp_def]
  rfl

/-- `silu g · u` is the gated hidden activation. -/
theorem hidden_eq (x0 : (⟨S16384x2048, .f32⟩ : BufTy).Contents (Elt Ideal))
    (x1 x3 : (⟨S64x2048x1024, .f32⟩ : BufTy).Contents (Elt Ideal)) (e : Fin 64) (t : Fin 256) (h : Fin 1024) :
    val_main_v4 (F := Ideal) x0 x1 x3 (ix3 e t h)
      = Cert.Spec.hidden (val_main_v0 (F := Ideal) x0) x1 x3 e t h := by
  rw [val_main_v4_apply, silu_eq, up_eq, Ideal.mulf_def]
  rfl

/-! ## The reference is `G` -/

/-- The down projection of the hidden activations is `G`: at `(e, t, d)` both sides are
    `Σ_h hidden[e,t,h] · w2[e,h,d]`. -/
theorem mid_eq (x0 : (⟨Cert.ReferenceIdeal.S16384x2048, .f32⟩ : BufTy).Contents (Elt Ideal)) (x1 : (⟨Cert.ReferenceIdeal.S64x2048x1024, .f32⟩ : BufTy).Contents (Elt Ideal)) (x2 : (⟨Cert.ReferenceIdeal.S64x1024x2048, .f32⟩ : BufTy).Contents (Elt Ideal)) (x3 : (⟨Cert.ReferenceIdeal.S64x2048x1024, .f32⟩ : BufTy).Contents (Elt Ideal)) :
    Cert.ReferenceIdeal.Read.val_main_v5 (F := Ideal) x0 x1 x2 x3 = Cert.Spec.G (Cert.ReferenceIdeal.Read.val_main_v0 (F := Ideal) x0) x1 x3 x2 := by
  funext i
  obtain ⟨e, t, d, rfl⟩ : ∃ (e : Fin 64) (t : Fin 256) (d : Fin 2048), i = ix3 e t d := ⟨i 0, i 1, i 2, eq_ix3 i⟩
  rw [Cert.Spec.G_ix3, val_main_v5_apply]
  unfold Cert.Spec.outAt
  refine Finset.sum_congr rfl fun h _ => ?_
  rw [lidx5, ridx5, hidden_eq]

end Cert.ReferenceIdeal.RefValue

end
-- ==== Proof.lean ====
/-
  The certificate of a grouped-expert SwiGLU feed-forward kernel against its reference, over the extended reals.

  Both programs regroup the tokens [16384, 2048] by expert into [64, 256, 2048], compute for each expert e, token t
  and output dimension d

      out[e,t,d] = Σ_{h < 1024} silu(Σ_k x[e,t,k]·w1[e,k,h]) · (Σ_k x[e,t,k]·w3[e,k,h]) · w2[e,h,d],

  and flatten the result back to [16384, 2048]. The reference does it with three batched contractions and jax's
  spelt-out silu, `g · (1 / (1 + e^(-g)))`; the kernel visits each expert twice, once per half of the hidden axis,
  with the logistic function as one operation and bf16 narrowings (the identity on extended reals) before each
  matrix product, accumulating the two halves' contributions from zero. The two are one function because a sum over
  1024 hidden units is the sum over the first 512 plus the sum over the last 512, added to zero — associativity and
  commutativity of addition of extended reals only, so the inputs' finiteness is never used.

  The kernel's three frames' worth of run, termination and unchanged arguments come from the generated frame modules;
  the reference's run and its operations read at an index from the generated run modules. Written here: the common
  function (`Spec`), the reference as that function (`RefValue`), the kernel body's payloads as one accumulate step
  (`Payload`), what a grid point leaves in the accumulator and the output block (`Pieces`), the blocks as restrictions
  of the whole arrays (`Blocks`), the two reshapes around the launch (`Ends`), and the result array after the run
  (`Value`).
-/
import proofs.«134115_j23682449670360_2_alg».proof.Defs
import proofs.«134115_j23682449670360_2_alg».proof.Proof.Gen.Kernel
import proofs.«134115_j23682449670360_2_alg».proof.Proof.Gen.Kernel.Skeleton
import proofs.«134115_j23682449670360_2_alg».proof.Proof.Gen.Kernel.Launch
import proofs.«134115_j23682449670360_2_alg».proof.Proof.Gen.Kernel.Points
import proofs.«134115_j23682449670360_2_alg».proof.Proof.Gen.Kernel.Frame
import proofs.«134115_j23682449670360_2_alg».proof.Proof.Gen.KernelIdeal
import proofs.«134115_j23682449670360_2_alg».proof.Proof.Gen.KernelIdeal.Skeleton
import proofs.«134115_j23682449670360_2_alg».proof.Proof.Gen.KernelIdeal.Launch
import proofs.«134115_j23682449670360_2_alg».proof.Proof.Gen.KernelIdeal.Points
import proofs.«134115_j23682449670360_2_alg».proof.Proof.Gen.KernelIdeal.Frame
import proofs.«134115_j23682449670360_2_alg».proof.Proof.Gen.ReferenceIdeal
import proofs.«134115_j23682449670360_2_alg».proof.Proof.Gen.Pre_finite_inputs
import proofs.«134115_j23682449670360_2_alg».proof.Proof.Gen.ReferenceIdeal.Read
import proofs.«134115_j23682449670360_2_alg».proof.Proof.Value
import proofs.«134115_j23682449670360_2_alg».proof.Proof.RefValue
import Idealize.ShloMosaic.Adequacy
import Idealize.ShloMosaic.Init

noncomputable section

namespace Cert.Proof

open Idealize.ShloMosaic Idealize.SL.Sem

/-- The kernel as printed runs, and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with their result at regroup, `G`, flatten of arguments that agree. -/
theorem algebraic : Cert.algebraic_KernelIdeal_ReferenceIdeal := by
  intro m ρ m' ρ' _ hagree
  refine ⟨fun c => Cert.KernelIdeal.Value.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq]
  unfold Cert.ReferenceIdeal.Read.val_main_v6
  rw [Cert.ReferenceIdeal.RefValue.mid_eq]
  unfold Cert.ReferenceIdeal.Read.val_main_v0
  rw [(hagree c).1, (hagree c).2.1, (hagree c).2.2.1, (hagree c).2.2.2.1]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
